-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S47 .f32) (main_v13 : IVec S_ 1) (main_v16 : IVec S256x47 1) : IVec S_ 1 :=
  let main_c_5 : IVec S_ 1 := constantI S_ 1 1#1
  let main_v17 : IVec S_ 1 := (fun x v => Host.reduce IntOp.andi x v reducesTo_S256x47_S_d0_1 h_S_) main_v16 main_c_5
  let main_v18 : IVec S_ 1 := andi main_v13 main_v17
  let main_v19 : FVec F S47 .f32 := Host.absf main_arg4
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S50000x256 .f32) (main_arg1 : FVec F S256x256 .f32) (main_arg2 : FVec F S256 .f32) (main_arg3 : FVec F S256x47 .f32) (main_arg4 : FVec F S47 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x47 .f32 := Host.absf main_arg3
  let main_cst_4 : FVec F S_ .f32 := constant S_ .f32 0x7F800000#32
  let main_v15 : FVec F S256x47 .f32 := broadcastInDim S256x47 ![] bcast_S_S256x47 main_cst_4
  let main_v16 : IVec S256x47 1 := cmpf .olt main_v14 main_v15
  fn_part1 (F := F) main_arg4 main_v13 main_v16
-- ==== Kernel.lean ====
abbrev S50000x256 : Shape := ⟨2, ![50000, 256]⟩
abbrev S256x256 : Shape := ⟨2, ![256, 256]⟩
abbrev S256 : Shape := ⟨1, ![256]⟩
abbrev S256x47 : Shape := ⟨2, ![256, 47]⟩
abbrev S47 : Shape := ⟨1, ![47]⟩
abbrev S1x256 : Shape := ⟨2, ![1, 256]⟩
abbrev S47x256 : Shape := ⟨2, ![47, 256]⟩
abbrev S47x1 : Shape := ⟨2, ![47, 1]⟩
abbrev S47x50000 : Shape := ⟨2, ![47, 50000]⟩
abbrev S12544x256 : Shape := ⟨2, ![12544, 256]⟩
abbrev S47x12544 : Shape := ⟨2, ![47, 12544]⟩
abbrev S50000x47 : Shape := ⟨2, ![50000, 47]⟩

abbrev nBuf : Space → Nat
  | .hbm => 10
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x47, .f32⟩
  | .hbm, ⟨4, _⟩ => ⟨S47, .f32⟩
  | .hbm, ⟨5, _⟩ => ⟨S1x256, .f32⟩
  | .hbm, ⟨6, _⟩ => ⟨S47x256, .f32⟩
  | .hbm, ⟨7, _⟩ => ⟨S47x1, .f32⟩
  | .hbm, ⟨8, _⟩ => ⟨S47x50000, .f32⟩
  | .hbm, ⟨9, _⟩ => ⟨S50000x47, .f32⟩
  | .local _ .vmem, ⟨0, _⟩ => ⟨S12544x256, .f32⟩
  | .local _ .vmem, ⟨1, _⟩ => ⟨S12544x256, .f32⟩
  | .local _ .vmem, ⟨2, _⟩ => ⟨S256x256, .f32⟩
  | .local _ .vmem, ⟨3, _⟩ => ⟨S1x256, .f32⟩
  | .local _ .vmem, ⟨4, _⟩ => ⟨S47x256, .f32⟩
  | .local _ .vmem, ⟨5, _⟩ => ⟨S47x1, .f32⟩
  | .local _ .vmem, ⟨6, _⟩ => ⟨S47x12544, .f32⟩
  | .local _ .vmem, ⟨7, _⟩ => ⟨S47x12544, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S47x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S47x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S47x12544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  transposes_S256x47_S47x256_1_0 : S256x47.Transposes [1, 0] S47x256
  shapeCasts_S47_S47x1 : S47.ShapeCasts S47x1
  inb_S12544x256_S12544x256_0_0 : ∀ a, (![0, 0] : Fin 2 → Nat) a + S12544x256.size a ≤ S12544x256.size a
  h_S12544x256 : 0 < S12544x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S12544x256 : S1x256.Broadcasts S12544x256
  inb_S47x256_S47x256_0_0 : ∀ a, (![0, 0] : Fin 2 → Nat) a + S47x256.size a ≤ S47x256.size a
  h_S47x256 : 0 < S47x256.numel
  shapeCasts_S47x256_S47x256 : S47x256.ShapeCasts S47x256
  inb_S47x1_S47x1_0_0 : ∀ a, (![0, 0] : Fin 2 → Nat) a + S47x1.size a ≤ S47x1.size a
  h_S47x1 : 0 < S47x1.numel
  shapeCasts_S47x1_S47x1 : S47x1.ShapeCasts S47x1
  broadcasts_S47x1_S47x12544 : S47x1.Broadcasts S47x12544
  inb_S47x12544_S47x12544_0_0 : ∀ a, (![0, 0] : Fin 2 → Nat) a + S47x12544.size a ≤ S47x12544.size a
  h_S47x12544 : 0 < S47x12544.numel
  transposes_S47x50000_S50000x47_1_0 : S47x50000.Transposes [1, 0] S50000x47
  dot_S12544x256_S256x256_S12544x256_1_0_0_1_n_n_wf : DotDims.WF S12544x256 S256x256 S12544x256 [1] [0] [0] [1] [] []
  dot_S47x256_S12544x256_S47x12544_1_1_0_0_n_n_wf : DotDims.WF S47x256 S12544x256 S47x12544 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12544x256.size a < S50000x256.size a
  hwx0_0 : ∀ i : grid0.Coords, EltTy.bits .f32 = 32 ∨ (Rect.unit (s := S50000x256) (fun a => cc0_transform_0 i a * S12544x256.size a) (fun a => (Pipeline.Clip.of (cc0_transform_0 i a) (S12544x256.size a) (S50000x256.size a)).extent (S12544x256.size a)) fun a => Pipeline.Clip.inb (Pipeline.Clip.ok_of (hstart0_0 i a))).WholeWords (EltTy.packing .f32)
  hwxs0_0 : ∀ i : grid0.Coords, EltTy.bits .f32 = 32 ∨ (Rect.unit (s := S12544x256) (fun _ => 0) (fun a => (Pipeline.Clip.of (cc0_transform_0 i a) (S12544x256.size a) (S50000x256.size a)).extent (S12544x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S47x256.size a ≤ S47x256.size a
  hwx0_3 : ∀ i : grid0.Coords, EltTy.bits .f32 = 32 ∨ (Rect.block (s := S47x256) S47x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S47x1.size a ≤ S47x1.size a
  hwx0_4 : ∀ i : grid0.Coords, EltTy.bits .f32 = 32 ∨ (Rect.block (s := S47x1) S47x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S47x12544.size a < S47x50000.size a
  hwx0_5 : ∀ i : grid0.Coords, EltTy.bits .f32 = 32 ∨ (Rect.unit (s := S47x50000) (fun a => cc0_transform_5 i a * S47x12544.size a) (fun a => (Pipeline.Clip.of (cc0_transform_5 i a) (S47x12544.size a) (S47x50000.size a)).extent (S47x12544.size a)) fun a => Pipeline.Clip.inb (Pipeline.Clip.ok_of (hstart0_5 i a))).WholeWords (EltTy.packing .f32)
  hwxs0_5 : ∀ i : grid0.Coords, EltTy.bits .f32 = 32 ∨ (Rect.unit (s := S47x12544) (fun _ => 0) (fun a => (Pipeline.Clip.of (cc0_transform_5 i a) (S47x12544.size a) (S47x50000.size a)).extent (S47x12544.size a)) fun a => (Nat.zero_add _).trans_le (Pipeline.Clip.extent_le (Pipeline.Clip.ok_of (hstart0_5 i a)))).WholeWords (EltTy.packing .f32)

variable [Facts₀]

def dot_S12544x256_S256x256_S12544x256_1_0_0_1_n_n : DotDims S12544x256 S256x256 S12544x256 where
  lhsContracting := [1]
  rhsContracting := [0]
  lhsNonContracting := [0]
  rhsNonContracting := [1]
  lhsBatch := []
  rhsBatch := []
  wf := dot_S12544x256_S256x256_S12544x256_1_0_0_1_n_n_wf
def dot_S47x256_S12544x256_S47x12544_1_1_0_0_n_n : DotDims S47x256 S12544x256 S47x12544 where
  lhsContracting := [1]
  rhsContracting := [1]
  lhsNonContracting := [0]
  rhsNonContracting := [0]
  lhsBatch := []
  rhsBatch := []
  wf := dot_S47x256_S12544x256_S47x12544_1_1_0_0_n_n_wf

abbrev win0_0 : Pipeline.Window sig grid0 :=
  Pipeline.Window.ofSpecClip (Memref.whole main_arg0) S12544x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S47x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S47x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v3) S47x12544.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S256x47 : Shape := ⟨2, ![256, 47]⟩
abbrev S47 : Shape := ⟨1, ![47]⟩
abbrev S1x256 : Shape := ⟨2, ![1, 256]⟩
abbrev S_ : Shape := ⟨0, ![]⟩
abbrev S50000x47 : Shape := ⟨2, ![50000, 47]⟩
abbrev S1x47 : Shape := ⟨2, ![1, 47]⟩

abbrev nBuf : Space → Nat
  | .hbm => 16
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x47, .f32⟩
  | .hbm, ⟨4, _⟩ => ⟨S47, .f32⟩
  | .hbm, ⟨5, _⟩ => ⟨S50000x256, .f32⟩
  | .hbm, ⟨6, _⟩ => ⟨S1x256, .f32⟩
  | .hbm, ⟨7, _⟩ => ⟨S50000x256, .f32⟩
  | .hbm, ⟨8, _⟩ => ⟨S50000x256, .f32⟩
  | .hbm, ⟨9, _⟩ => ⟨S_, .f32⟩
  | .hbm, ⟨10, _⟩ => ⟨S50000x256, .f32⟩
  | .hbm, ⟨11, _⟩ => ⟨S50000x256, .f32⟩
  | .hbm, ⟨12, _⟩ => ⟨S50000x47, .f32⟩
  | .hbm, ⟨13, _⟩ => ⟨S1x47, .f32⟩
  | .hbm, ⟨14, _⟩ => ⟨S50000x47, .f32⟩
  | .hbm, ⟨15, _⟩ => ⟨S50000x47, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  dot_S50000x256_S256x256_S50000x256_1_0_0_1_n_n_wf : DotDims.WF S50000x256 S256x256 S50000x256 [1] [0] [0] [1] [] []
  dot_S50000x256_S256x47_S50000x47_1_0_0_1_n_n_wf : DotDims.WF S50000x256 S256x47 S50000x47 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x47_S50000x47_1_0_0_1_n_n : DotDims S50000x256 S256x47 S50000x47 where
  lhsContracting := [1]
  rhsContracting := [0]
  lhsNonContracting := [0]
  rhsNonContracting := [1]
  lhsBatch := []
  rhsBatch := []
  wf := dot_S50000x256_S256x47_S50000x47_1_0_0_1_n_n_wf

class Facts : Prop extends Facts₀ where

variable [Facts]
-- ==== Proof.BitsBody.lean ====
/-
  The kernel body's triple for `Kernel`, at any float instance.

  One grid point of the kernel reads five whole staging buffers — a block `x` of 12544 rows of the features, the
  first layer's weights `W1` and bias row `b1`, the second layer's transposed weights `W2ᵀ` and bias column `b2` —
  and overwrites the sixth, whole, with the transposed logits block
      `W2ᵀ · relu(x · W1 + b1)ᵀ + b2`      (47 rows, 12544 columns: column `n` is row `n` of `x`).
  Stated here: run on whole staging memrefs holding `x0 … x4` and anything in the sixth, the body ends with the five as
  they were and the sixth at `outBlock x0 … x4`, the single store's payload over the five loads.
-/
import proofs.«152426_g5540507811991_cont_9to1c4b_52_39_alg».proof.Proof.Gen.Kernel.Frame
import proofs.«152426_g5540507811991_cont_9to1c4b_52_39_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole, from offset zero -/

abbrev rX : Rect S12544x256 := Rect.unit (s := S12544x256) ![0, 0] S12544x256.size inb_S12544x256_S12544x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rW2 : Rect S47x256 := Rect.unit (s := S47x256) ![0, 0] S47x256.size inb_S47x256_S47x256_0_0
abbrev rB2 : Rect S47x1 := Rect.unit (s := S47x1) ![0, 0] S47x1.size inb_S47x1_S47x1_0_0
abbrev rO : Rect S47x12544 := Rect.unit (s := S47x12544) ![0, 0] S47x12544.size inb_S47x12544_S47x12544_0_0

/-- What the result's staging buffer holds after the body: its one store, of the transposed logits block computed from
    the five loads. -/
def outBlock (x0 : Vec F S12544x256 .f32) (x1 : Vec F S256x256 .f32) (x2 : Vec F S1x256 .f32) (x3 : Vec F S47x256 .f32)
    (x4 : Vec F S47x1 .f32) : Vec F S47x12544 .f32 :=
  View.canon [⟨rO, k0_pay1 (View.ld x0 rX) (View.ld x1 rW1) (View.ld x2 rB1) (View.ld x3 rW2) (View.ld x4 rB2)⟩]

/-- The one store covers the buffer. -/
theorem cover_out (p0 : Vec F S47x12544 .f32) (y : S47x12544.Idx) :
    ∃ pc ∈ ([⟨rO, p0⟩] : List (View.Piece (Elt F) S47x12544 .f32)), y ∈ pc.1.set :=
  View.cover_of_tiled [⟨rO, p0⟩] S47x12544.size (by rfl) y

set_option maxHeartbeats 1000000 in
/-- The body on whole staging memrefs: the five inputs' keep their contents, the result's ends at `outBlock` of them. -/
theorem sound_kernel (c : Dev nD) (E : Set ℕ) (i : grid0.Coords)
    (arg1 : Memref sig .tc .vmem S12544x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S47x256 .f32) (harg4 : arg4.IsWhole)
    (arg5 : Memref sig .tc .vmem S47x1 .f32) (harg5 : arg5.IsWhole) (arg6 : Memref sig .tc .vmem S47x12544 .f32) (harg6 : arg6.IsWhole)
    (x0 : Vec F S12544x256 .f32) (x1 : Vec F S256x256 .f32) (x2 : Vec F S1x256 .f32) (x3 : Vec F S47x256 .f32) (x4 : Vec F S47x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Body

end
-- ==== Proof.BitsFrame.lean ====
/-
  The frame of the kernel as printed, at any float instance — in particular at the word level.

  The frame claim reads nothing of the result array, and the last feature block overhangs the array: the staging rows past
  row 49999 hold words nothing names, and what the body computes from them is not determined. So the proof data constrain
  the staging buffers instead of naming their contents: the body leaves each of its five input buffers exactly as it found
  it, and of the result's buffer nothing is said. An input array is never written, so it ends as the region found it; the
  reshaped bias and the transposed weights are written before the region from arguments those lines do not write; the line
  after the region writes only its own result. Hence every argument array ends as launched.
-/
import proofs.«152426_g5540507811991_cont_9to1c4b_52_39_alg».proof.Proof.BitsBody

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; every input's staging buffer left as found, the result's left at
    anything; the scoped rest and the random-number register untouched; nothing owed; full shares. -/
def rdat (c : Dev nD) : RDat τ (Elt F) Unit ℕ (UR sig nD τ) ℕ cfg0 c where
  A w := V m c (Pipeline.arrRef spec0 w)
  after w _ Y X := w = 5 ∨ X = Y
  Φ _ := Pipeline.ΦA spec0 c
  q _ := fullShare
  owed _ := 0

/-- The body at any point, whatever the staging buffers hold: five buffers read and left alone, the sixth overwritten. -/
theorem body_obligation (c : Dev nD) : (rdat (F := F) m c).BodyObligation (defs₀ (F := F)) Variants.none () Set.univ := fun t Y _ => by
  rw [bigSep_W0, bigSep_W0]
  change _ ⊢ wp frame (wpE (defs₀ (F := F)) Variants.none c none) Set.univ (bodyAt0 t) _
  unfold bodyAt0
  rw [show (rdat (F := F) m c).Φ t.succ = (rdat (F := F) m c).Φ t.castSucc from rfl,
    show (rdat (F := F) m c).owesAt () t.succ = (rdat (F := F) m c).owesAt () t.castSucc from rfl]
  iintro ⟨HΦ, Ho, H0, H1, H2, H3, H4, H5⟩
  iapply (sound_kernel (F := F) c Set.univ (grid0.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; exact Or.inr rfl
    iexact H0
  isplitl [H1]
  · iexists (Y 1); isplitr; · ipureintro; exact Or.inr rfl
    iexact H1
  isplitl [H2]
  · iexists (Y 2); isplitr; · ipureintro; exact Or.inr rfl
    iexact H2
  isplitl [H3]
  · iexists (Y 3); isplitr; · ipureintro; exact Or.inr rfl
    iexact H3
  isplitl [H4]
  · iexists (Y 4); isplitr; · ipureintro; exact Or.inr rfl
    iexact H4
  · iexists (outBlock (Y 0) (Y 1) (Y 2) (Y 3) (Y 4)); isplitr; · ipureintro; exact Or.inl rfl
    iexact H5

/-- The one buffer the line after the region writes: the transposed result. -/
abbrev tailWrites : Finset (Ref sig .tc) := {main_v4}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective (τ := τ) _ hb)

set_option backward.isDefEq.respectTransparency.types false in
/-- Every weakly fair execution of @main terminates without a fault; the windowed arrays end at contents the proof data
    allow, every other unscoped buffer but the transposed result as the region found it. -/
theorem run_main : θ_run defs (onTc (τ := τ) (main (F := F))) (s₀ m ρ)
    (Pipeline.RDat.FramePostR cfg0 (rdat (F := F) m) tailWrites (fun c b => V0 m c (Proc.devRef .tc b))) :=
  Pipeline.RDat.θ_run_frame_around_T cfgs (0 : Fin 1) launch0 defs₀ Variants.none (rdat (F := F) m) tailWrites m ρ main
    (hbody := body_obligation m) (hshare := fun c w => by unfold RDat.share; split <;> rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main (F := F) m ρ)
  have h0 := (h c).1 0
  have h1 := (h c).1 1
  rw [(rdat (F := F) m c).ArrAt_in 0 rfl] at h0
  rw [(rdat (F := F) m c).ArrAt_in 1 rfl] at h1
  have hr : ∀ b : Ref sig .tc, b.isScoped = false → (∀ w, Pipeline.arrRef spec0 w ≠ b) → b ∉ tailWrites →
      r.2.mem ((c.tc : Thread nD τ).loc b) = V m c b := fun b hs hw hT =>
    (h c).2 b (Finset.mem_sdiff.mpr ⟨Pipeline.mem_restRefs_of b hs hw, hT⟩)
  exact ⟨h0.trans (V_main_arg0 m c), h1.trans (V_main_arg1 m c),
    (hr main_arg2 (by decide) (by decide) (by decide)).trans (V_main_arg2 m c),
    (hr main_arg3 (by decide) (by decide) (by decide)).trans (V_main_arg3 m c),
    (hr main_arg4 (by decide) (by decide) (by decide)).trans (V_main_arg4 m c)⟩

end Cert.Kernel.FrameProof

end
-- ==== Proof.IdealBody.lean ====
/-
  The kernel body's triple for `KernelIdeal`, at any float instance.

  One grid point of the kernel reads five whole staging buffers — a block `x` of 12544 rows of the features, the
  first layer's weights `W1` and bias row `b1`, the second layer's transposed weights `W2ᵀ` and bias column `b2` —
  and overwrites the sixth, whole, with the transposed logits block
      `W2ᵀ · relu(x · W1 + b1)ᵀ + b2`      (47 rows, 12544 columns: column `n` is row `n` of `x`).
  Stated here: run on whole staging memrefs holding `x0 … x4` and anything in the sixth, the body ends with the five as
  they were and the sixth at `outBlock x0 … x4`, the single store's payload over the five loads.
-/
import proofs.«152426_g5540507811991_cont_9to1c4b_52_39_alg».proof.Proof.Gen.KernelIdeal.Frame
import proofs.«152426_g5540507811991_cont_9to1c4b_52_39_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole, from offset zero -/

abbrev rX : Rect S12544x256 := Rect.unit (s := S12544x256) ![0, 0] S12544x256.size inb_S12544x256_S12544x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rW2 : Rect S47x256 := Rect.unit (s := S47x256) ![0, 0] S47x256.size inb_S47x256_S47x256_0_0
abbrev rB2 : Rect S47x1 := Rect.unit (s := S47x1) ![0, 0] S47x1.size inb_S47x1_S47x1_0_0
abbrev rO : Rect S47x12544 := Rect.unit (s := S47x12544) ![0, 0] S47x12544.size inb_S47x12544_S47x12544_0_0

/-- What the result's staging buffer holds after the body: its one store, of the transposed logits block computed from
    the five loads. -/
def outBlock (x0 : Vec F S12544x256 .f32) (x1 : Vec F S256x256 .f32) (x2 : Vec F S1x256 .f32) (x3 : Vec F S47x256 .f32)
    (x4 : Vec F S47x1 .f32) : Vec F S47x12544 .f32 :=
  View.canon [⟨rO, k0_pay1 (View.ld x0 rX) (View.ld x1 rW1) (View.ld x2 rB1) (View.ld x3 rW2) (View.ld x4 rB2)⟩]

/-- The one store covers the buffer. -/
theorem cover_out (p0 : Vec F S47x12544 .f32) (y : S47x12544.Idx) :
    ∃ pc ∈ ([⟨rO, p0⟩] : List (View.Piece (Elt F) S47x12544 .f32)), y ∈ pc.1.set :=
  View.cover_of_tiled [⟨rO, p0⟩] S47x12544.size (by rfl) y

set_option maxHeartbeats 1000000 in
/-- The body on whole staging memrefs: the five inputs' keep their contents, the result's ends at `outBlock` of them. -/
theorem sound_kernel (c : Dev nD) (E : Set ℕ) (i : grid0.Coords)
    (arg1 : Memref sig .tc .vmem S12544x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S47x256 .f32) (harg4 : arg4.IsWhole)
    (arg5 : Memref sig .tc .vmem S47x1 .f32) (harg5 : arg5.IsWhole) (arg6 : Memref sig .tc .vmem S47x12544 .f32) (harg6 : arg6.IsWhole)
    (x0 : Vec F S12544x256 .f32) (x1 : Vec F S256x256 .f32) (x2 : Vec F S1x256 .f32) (x3 : Vec F S47x256 .f32) (x4 : Vec F S47x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Body

end
-- ==== Proof.Mlp.lean ====
/-
  The two-layer perceptron both programs compute, one logit at a time, on the extended reals.

  For one sample row `x` (256 features), first-layer weights `W1` (256 × 256) and bias `b1`, the hidden unit `k` is
      `h k = max (∑ j, x j · W1 j k + b1 k) 0`,
  and for one class, with that class's column `w2` of the second layer's weights and its bias `b2`, the logit is
      `∑ k, h k · w2 k + b2`.
  A logit depends on the sample's own row only: rows of other samples — and whatever a staging buffer holds past the end of
  the array — never enter it.
-/
import Idealize.ShloMosaic.PureOps.Ideal

noncomputable section

namespace Cert.Mlp

/-- Hidden unit `k` of one sample row: the rectified affine image of the row. -/
def hiddenUnit (row : Fin 256 → EReal) (w1 : Fin 256 → Fin 256 → EReal) (b1 : Fin 256 → EReal) (k : Fin 256) : EReal :=
  max ((∑ j : Fin 256, row j * w1 j k) + b1 k) 0

/-- One logit of one sample row: the hidden units against one class's weight column, plus that class's bias. -/
def logit (row : Fin 256 → EReal) (w1 : Fin 256 → Fin 256 → EReal) (b1 : Fin 256 → EReal) (w2 : Fin 256 → EReal) (b2 : EReal) : EReal :=
  (∑ k : Fin 256, hiddenUnit row w1 b1 k * w2 k) + b2

end Cert.Mlp

end
-- ==== Proof.IdealPayload.lean ====
/-
  The idealized kernel's block arithmetic, read at one entry.

  At the ideal values a change of float format is the identity and a matrix product into a zero accumulator is the plain sum
  of products, so entry `(p, q)` of the block the body stores — class `p`, row `q` of the feature block — is the logit of
  that one row: the hidden units of row `q` against row `p` of the transposed second-layer weights, plus entry `p` of the
  bias column. The kernel multiplies weight by hidden unit, the specification hidden unit by weight: commutativity of the
  product on the extended reals joins them, term by term.
-/
import proofs.«152426_g5540507811991_cont_9to1c4b_52_39_alg».proof.Proof.Gen.KernelIdeal.Skeleton
import proofs.«152426_g5540507811991_cont_9to1c4b_52_39_alg».proof.Proof.Mlp
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

abbrev dotA := dot_S12544x256_S256x256_S12544x256_1_0_0_1_n_n
abbrev dotB := dot_S47x256_S12544x256_S47x12544_1_1_0_0_n_n

/-- The first product, rows of the feature block against columns of the first layer's weights, at an entry. -/
theorem first_product_apply (a : FVec Ideal S12544x256 .bf16) (b : FVec Ideal S256x256 .bf16) (q : Fin 12544) (k : Fin 256) :
    matmul dotA none a b (constant (F := Ideal) S12544x256 .f32 0x00000000#32) (ix2 q k)
      = ∑ j : Fin 256, a (ix2 q j) * b (ix2 j k) := by
  refine (Ideal.matmul_constant_zero_apply dotA none a b (ix2 q k)).trans ?_
  rw [← Equiv.sum_comp (ValueIdx.contrEquiv1 dotA 256 rfl rfl).symm]
  refine Finset.sum_congr rfl fun j _ => ?_
  have hj := ValueIdx.contrEquiv1_symm_val dotA 256 rfl rfl j
  have el : dotA.lhsIdx (ix2 q k) ((ValueIdx.contrEquiv1 dotA 256 rfl rfl).symm j) = ix2 q j := funext fun a => Fin.ext (by
    match a with
    | ⟨0, _⟩ =>
      show (dotA.lhsIdx (ix2 q k) _ 0).val = q.val
      unfold DotDims.lhsIdx
      rw [dif_neg (show ¬(0 : Fin S12544x256.rank) ∈ dotA.lhsBatch by decide), dif_pos (show (0 : Fin S12544x256.rank) ∈ dotA.lhsNonContracting by decide)]
      rfl
    | ⟨1, _⟩ => exact (dotA.lhsIdx_val_of_single rfl (ix2 q k) _).trans hj)
  have er : dotA.rhsIdx (ix2 q k) ((ValueIdx.contrEquiv1 dotA 256 rfl rfl).symm j) = ix2 j k := funext fun a => Fin.ext (by
    match a with
    | ⟨0, _⟩ => exact (dotA.rhsIdx_val_of_single rfl (ix2 q k) _).trans hj
    | ⟨1, _⟩ =>
      show (dotA.rhsIdx (ix2 q k) _ 1).val = k.val
      unfold DotDims.rhsIdx
      rw [dif_neg (show ¬(1 : Fin S256x256.rank) ∈ dotA.rhsBatch by decide), dif_pos (show (1 : Fin S256x256.rank) ∈ dotA.rhsNonContracting by decide)]
      rfl)
  rw [el, er]

/-- The second product, rows of the transposed second-layer weights against rows of the hidden block (both contracted
    on their second axis), at an entry. -/
theorem second_product_apply (a : FVec Ideal S47x256 .bf16) (b : FVec Ideal S12544x256 .bf16) (p : Fin 47) (q : Fin 12544) :
    matmul dotB none a b (constant (F := Ideal) S47x12544 .f32 0x00000000#32) (ix2 p q)
      = ∑ k : Fin 256, a (ix2 p k) * b (ix2 q k) := by
  refine (Ideal.matmul_constant_zero_apply dotB none a b (ix2 p q)).trans ?_
  rw [← Equiv.sum_comp (ValueIdx.contrEquiv1 dotB 256 rfl rfl).symm]
  refine Finset.sum_congr rfl fun k _ => ?_
  have hk := ValueIdx.contrEquiv1_symm_val dotB 256 rfl rfl k
  have el : dotB.lhsIdx (ix2 p q) ((ValueIdx.contrEquiv1 dotB 256 rfl rfl).symm k) = ix2 p k := funext fun a => Fin.ext (by
    match a with
    | ⟨0, _⟩ =>
      show (dotB.lhsIdx (ix2 p q) _ 0).val = p.val
      unfold DotDims.lhsIdx
      rw [dif_neg (show ¬(0 : Fin S47x256.rank) ∈ dotB.lhsBatch by decide), dif_pos (show (0 : Fin S47x256.rank) ∈ dotB.lhsNonContracting by decide)]
      rfl
    | ⟨1, _⟩ => exact (dotB.lhsIdx_val_of_single rfl (ix2 p q) _).trans hk)
  have er : dotB.rhsIdx (ix2 p q) ((ValueIdx.contrEquiv1 dotB 256 rfl rfl).symm k) = ix2 q k := funext fun a => Fin.ext (by
    match a with
    | ⟨0, _⟩ =>
      show (dotB.rhsIdx (ix2 p q) _ 0).val = q.val
      unfold DotDims.rhsIdx
      rw [dif_neg (show ¬(0 : Fin S12544x256.rank) ∈ dotB.rhsBatch by decide), dif_pos (show (0 : Fin S12544x256.rank) ∈ dotB.rhsNonContracting by decide)]
      rfl
    | ⟨1, _⟩ => exact (dotB.rhsIdx_val_of_single rfl (ix2 p q) _).trans hk)
  rw [el, er]

/-- The bfloat16 zero the body clamps against is the real number zero. -/
theorem zero_bf16 : (Scalar.ofBits (F := Ideal) .bf16 0x0000#16 : Ideal .bf16) = (0 : EReal) := by
  show Ideal.ofBits .bf16 0x0000#16 = 0
  simp [Ideal.ofBits, Ideal.ieee]

/-- The bias row, spread over the rows of the hidden block, read at an entry. -/
theorem bias_row_apply (x2 : FVec Ideal S1x256 .bf16) (q : Fin 12544) (k : Fin 256) :
    broadcastTo S12544x256 x2 broadcasts_S1x256_S12544x256 (ix2 q k) = x2 (ix2 0 k) :=
  broadcastTo_apply x2 broadcasts_S1x256_S12544x256 (ix2 q k) (ix2 0 k) (fun a => match a with
    | ⟨0, _⟩ => by show (0 : Nat) = if (1 : Nat) = 1 then 0 else q.val; rw [if_pos rfl]
    | ⟨1, _⟩ => by show k.val = if (256 : Nat) = 1 then 0 else k.val; rw [if_neg (by decide)])

/-- The bias column, spread over the columns of the logits block, read at an entry. -/
theorem bias_col_apply (x4 : FVec Ideal S47x1 .f32) (p : Fin 47) (q : Fin 12544) :
    broadcastTo S47x12544 x4 broadcasts_S47x1_S47x12544 (ix2 p q) = x4 (ix2 p 0) :=
  broadcastTo_apply x4 broadcasts_S47x1_S47x12544 (ix2 p q) (ix2 p 0) (fun a => match a with
    | ⟨0, _⟩ => by show p.val = if (47 : Nat) = 1 then 0 else p.val; rw [if_neg (by decide)]
    | ⟨1, _⟩ => by show (0 : Nat) = if (1 : Nat) = 1 then 0 else q.val; rw [if_pos rfl])

/-- Entry `(p, q)` of the block the body stores is the logit of row `q` of the feature block for class `p`. -/
theorem block_entry (x0 : Vec Ideal S12544x256 .f32) (x1 : Vec Ideal S256x256 .f32) (x2 : Vec Ideal S1x256 .f32)
    (x3 : Vec Ideal S47x256 .f32) (x4 : Vec Ideal S47x1 .f32) (p : Fin 47) (q : Fin 12544) :
    k0_pay1 (F := Ideal) x0 x1 x2 x3 x4 (ix2 p q)
      = Cert.Mlp.logit (fun j => x0 (ix2 q j)) (fun j k => x1 (ix2 j k)) (fun k => x2 (ix2 0 k)) (fun k => x3 (ix2 p k)) (x4 (ix2 p 0)) := by
  unfold k0_pay1 Cert.Mlp.logit
  show (matmul dotB none _ _ (constant (F := Ideal) S47x12544 .f32 0x00000000#32) (ix2 p q) : EReal)
      + broadcastTo S47x12544 (shapeCast S47x1 x4 shapeCasts_S47x1_S47x1) broadcasts_S47x1_S47x12544 (ix2 p q) = _ + _
  refine congrArg₂ (· + ·) ((second_product_apply _ _ p q).trans (Finset.sum_congr rfl fun k _ => ?_)) ?_
  · -- one term: weight times hidden unit, against hidden unit times weight
    refine (mul_comm _ _).trans (congrArg₂ (· * ·) ?_ ?_)
    · unfold Cert.Mlp.hiddenUnit
      show max ((matmul dotA none _ _ (constant (F := Ideal) S12544x256 .f32 0x00000000#32) (ix2 q k) : EReal)
          + broadcastTo S12544x256 (shapeCast S1x256 x2 shapeCasts_S1x256_S1x256) broadcasts_S1x256_S12544x256 (ix2 q k))
          (Scalar.ofBits (F := Ideal) .bf16 0x0000#16) = max (_ + _) 0
      refine congrArg₂ max (congrArg₂ (· + ·) (first_product_apply _ _ q k) ?_) zero_bf16
      refine (bias_row_apply _ q k).trans ?_
      rw [shapeCast_self]
    · show shapeCast S47x256 x3 shapeCasts_S47x256_S47x256 (ix2 p k) = x3 (ix2 p k)
      rw [shapeCast_self]
  · refine (bias_col_apply _ p q).trans ?_
    rw [shapeCast_self]

end Cert.KernelIdeal.Payload

end
-- ==== Proof.IdealData.lean ====
/-
  What the idealized kernel's result array holds, and why the run reaches it.

  The transposed logits, as ONE function of the arrays the region finds: entry `(p, n)` is the logit of sample row `n` for
  class `p` (`logitsT`). Grid point `t` works on rows `12544·t … 12544·t + 12543` of the features; the fourth block
  overhangs the 50000 rows by 176, and its staging rows past the array's end hold words nothing names. A logit depends on
  its own row only, so on the columns of the stored block that lie inside the array the body's result is the block of
  `logitsT` whatever those words are — which is all the write-back moves, and all the body obligation of a window with
  clipped blocks states.
-/
import proofs.«152426_g5540507811991_cont_9to1c4b_52_39_alg».proof.Proof.IdealBody
import proofs.«152426_g5540507811991_cont_9to1c4b_52_39_alg».proof.Proof.IdealPayload

set_option maxRecDepth 16384

noncomputable section

namespace Cert.KernelIdeal.Run

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The whole-array function -/

/-- The logit of sample row `n` for class `p`, from a feature array, the first layer's weights, its bias as a row, the
    second layer's weights transposed and its bias as a column. -/
def logitsOf (a0 : S50000x256.Idx → EReal) (a1 : S256x256.Idx → EReal) (a2 : S1x256.Idx → EReal) (a3 : S47x256.Idx → EReal)
    (a4 : S47x1.Idx → EReal) (p : Fin 47) (n : Fin 50000) : EReal :=
  Cert.Mlp.logit (fun j => a0 (ix2 n j)) (fun j k => a1 (ix2 j k)) (fun k => a2 (ix2 0 k)) (fun k => a3 (ix2 p k)) (a4 (ix2 p 0))

/-- The transposed logits of the arrays as the region finds them: what the kernel's result array ends holding. -/
def logitsT (c : Dev nD) : Buf (Elt Ideal) ((c : Thread nD τ).loc main_v3) :=
  fun i : S47x50000.Idx => logitsOf (V m c main_arg0) (V m c main_arg1) (V m c main_v0) (V m c main_v1) (V m c main_v2)
    ⟨(i 0).val, (i 0).isLt⟩ ⟨(i 1).val, (i 1).isLt⟩

/-! ## The one store's payload -/

theorem zeros2 : (![0, 0] : Fin 2 → Nat) = fun _ => 0 := funext fun a => by fin_cases a <;> rfl

/-- The buffer after the body is the payload of the five buffers' contents: every access is a whole buffer. -/
theorem outBlock_eq (x0 : Vec Ideal S12544x256 .f32) (x1 : Vec Ideal S256x256 .f32) (x2 : Vec Ideal S1x256 .f32)
    (x3 : Vec Ideal S47x256 .f32) (x4 : Vec Ideal S47x1 .f32) :
    outBlock (F := Ideal) x0 x1 x2 x3 x4 = k0_pay1 x0 x1 x2 x3 x4 := by
  unfold outBlock
  rw [View.canon_unit_zero zeros2]
  simp only [View.ld_unit_zero (S := S12544x256) zeros2, View.ld_unit_zero (S := S256x256) zeros2,
    View.ld_unit_zero (S := S1x256) zeros2, View.ld_unit_zero (S := S47x256) zeros2, View.ld_unit_zero (S := S47x1) zeros2]

/-! ## Where the blocks sit -/

/-- The printed index maps and cuts, decided over the four grid points: the feature block and the result block move
    together (rows of one are columns of the other, cut alike at the array's end), every other block is its whole array. -/
theorem idx_facts : ∀ t : Fin cfg0.N,
    win0_0.index t (0 : Fin 2) = win0_5.index t (1 : Fin 2) ∧ win0_0.index t (1 : Fin 2) = 0
    ∧ win0_5.index t (0 : Fin 2) = 0
    ∧ win0_0.xsize (grid0.coords t) (0 : Fin 2) = win0_5.xsize (grid0.coords t) (1 : Fin 2)
    ∧ win0_0.xsize (grid0.coords t) (1 : Fin 2) = 256 ∧ win0_5.xsize (grid0.coords t) (0 : Fin 2) = 47
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first layer's weights: the block is the array. -/
theorem weights1_block (c : Dev nD) (t : Fin cfg0.N) (j k : Fin 256) :
    iblk m c 1 t (ix2 j k) = V m c main_arg1 (ix2 j k) := by
  obtain ⟨-, -, -, -, -, -, e0, e1, -⟩ := idx_facts t
  show V m c main_arg1 (((cfg0.win 1).blk t).view.emb (ix2 j k)) = _
  refine congrArg (V m c main_arg1) (funext fun a => Fin.ext ?_)
  match a with
  | ⟨0, _⟩ => show win0_1.index t (0 : Fin 2) * 256 + 1 * j.val = j.val; omega
  | ⟨1, _⟩ => show win0_1.index t (1 : Fin 2) * 256 + 1 * k.val = k.val; omega

/-- The bias row. -/
theorem bias1_block (c : Dev nD) (t : Fin cfg0.N) (k : Fin 256) :
    iblk m c 2 t (ix2 0 k) = V m c main_v0 (ix2 0 k) := by
  obtain ⟨-, -, -, -, -, -, -, -, e0, e1, -⟩ := idx_facts t
  show V m c main_v0 (((cfg0.win 2).blk t).view.emb (ix2 0 k)) = _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 256 + 1 * k.val = k.val; omega

/-- The transposed second-layer weights. -/
theorem weights2_block (c : Dev nD) (t : Fin cfg0.N) (p : Fin 47) (k : Fin 256) :
    iblk m c 3 t (ix2 p k) = V m c main_v1 (ix2 p k) := by
  obtain ⟨-, -, -, -, -, -, -, -, -, -, e0, e1, -⟩ := idx_facts t
  show V m c main_v1 (((cfg0.win 3).blk t).view.emb (ix2 p k)) = _
  refine congrArg (V m c main_v1) (funext fun a => Fin.ext ?_)
  match a with
  | ⟨0, _⟩ => show win0_3.index t (0 : Fin 2) * 47 + 1 * p.val = p.val; omega
  | ⟨1, _⟩ => show win0_3.index t (1 : Fin 2) * 256 + 1 * k.val = k.val; omega

/-- The bias column. -/
theorem bias2_block (c : Dev nD) (t : Fin cfg0.N) (p : Fin 47) :
    iblk m c 4 t (ix2 p 0) = V m c main_v2 (ix2 p 0) := by
  obtain ⟨-, -, -, -, -, -, -, -, -, -, -, -, e0, e1⟩ := idx_facts t
  show V m c main_v2 (((cfg0.win 4).blk t).view.emb (ix2 p 0)) = _
  refine congrArg (V m c main_v2) (funext fun a => Fin.ext ?_)
  match a with
  | ⟨0, _⟩ => show win0_4.index t (0 : Fin 2) * 47 + 1 * p.val = p.val; omega
  | ⟨1, _⟩ => show win0_4.index t (1 : Fin 2) * 1 + 1 * 0 = 0; omega

/-- A row of the feature staging buffer that the fetch filled — row `q` below the cut — is row `12544·t + q` of the
    features, whatever the buffer held before. -/
theorem features_block (c : Dev nD) (t : Fin cfg0.N) (d0 : S12544x256.Idx → EReal) (q : Fin 12544)
    (hq : q.val < win0_5.xsize (grid0.coords t) (1 : Fin 2)) (n : Fin 50000)
    (hn : n.val = win0_5.index t (1 : Fin 2) * 12544 + q.val) (j : Fin 256) :
    win0_0.fill (grid0.coords t) d0 (iblk m c 0 t) (ix2 q j) = V m c main_arg0 (ix2 n j) := by
  obtain ⟨e0, e1, -, ex0, ex1, -⟩ := idx_facts t
  let y : (win0_0.xblock (grid0.coords t)).Idx := fun a => match a with
    | ⟨0, _⟩ => ⟨q.val, by show q.val < win0_0.xsize (grid0.coords t) (0 : Fin 2); rw [ex0]; exact hq⟩
    | ⟨1, _⟩ => ⟨j.val, by show j.val < win0_0.xsize (grid0.coords t) (1 : Fin 2); rw [ex1]; exact j.isLt⟩
  have hy : (ix2 q j : S12544x256.Idx) = win0_0.xinj (grid0.coords t) y := funext fun a => Fin.ext (by
    match a with
    | ⟨0, _⟩ => rfl
    | ⟨1, _⟩ => rfl)
  rw [hy, win0_0.fill_xinj]
  show V m c main_arg0 (((cfg0.win 0).blk t).view.emb y) = _
  refine congrArg (V m c main_arg0) (funext fun a => Fin.ext ?_)
  match a with
  | ⟨0, _⟩ => show win0_0.index t (0 : Fin 2) * 12544 + 1 * q.val = n.val; omega
  | ⟨1, _⟩ => show win0_0.index t (1 : Fin 2) * 256 + 1 * j.val = j.val; omega

/-! ## The stored block, cut, is the block of the whole-array function -/

theorem cut_outBlock (c : Dev nD) (t : Fin cfg0.N) (d0 : S12544x256.Idx → EReal) :
    win0_5.cut (grid0.coords t)
        (outBlock (F := Ideal) (win0_0.fill (grid0.coords t) d0 (iblk m c 0 t)) (iblk m c 1 t) (iblk m c 2 t) (iblk m c 3 t) (iblk m c 4 t))
      = (win0_5.blk t).view.read (Elt Ideal) (logitsT m c) := by
  rw [outBlock_eq]
  obtain ⟨-, -, e5, -, -, ex5, -⟩ := idx_facts t
  funext y
  have hp : (y 0).val < 47 := by
    have h : (y 0).val < win0_5.xsize (grid0.coords t) (0 : Fin 2) := (y 0).isLt
    rw [ex5] at h; exact h
  have hq : (y 1).val < 12544 := Nat.lt_of_lt_of_le (y 1).isLt (win0_5.xsize_le (grid0.coords t) 1)
  have hn : win0_5.index t (1 : Fin 2) * 12544 + (y 1).val < 50000 := by
    have := (((win0_5.blk t).view.emb y) 1).isLt
    rwa [show ((((win0_5.blk t).view.emb y) 1 : Fin _) : Nat) = win0_5.index t (1 : Fin 2) * 12544 + 1 * (y 1).val from rfl, Nat.one_mul] at this
  have hx : win0_5.xinj (grid0.coords t) y = ix2 (⟨(y 0).val, hp⟩ : Fin 47) (⟨(y 1).val, hq⟩ : Fin 12544) := funext fun a => Fin.ext (by
    match a with
    | ⟨0, _⟩ => rfl
    | ⟨1, _⟩ => rfl)
  show (k0_pay1 (F := Ideal) _ _ _ _ _ (win0_5.xinj (grid0.coords t) y) : EReal) = (logitsT m c ((win0_5.blk t).view.emb y) : EReal)
  rw [hx]
  refine (block_entry (win0_0.fill (grid0.coords t) d0 (iblk m c 0 t)) (iblk m c 1 t) (iblk m c 2 t) (iblk m c 3 t) (iblk m c 4 t)
    ⟨(y 0).val, hp⟩ ⟨(y 1).val, hq⟩).trans ?_
  have ei0 : ((((win0_5.blk t).view.emb y) 0 : Fin _) : Nat) = (y 0).val := by
    show win0_5.index t (0 : Fin 2) * 47 + 1 * (y 0).val = (y 0).val; omega
  have ei1 : ((((win0_5.blk t).view.emb y) 1 : Fin _) : Nat) = win0_5.index t (1 : Fin 2) * 12544 + (y 1).val := by
    show win0_5.index t (1 : Fin 2) * 12544 + 1 * (y 1).val = _; omega
  unfold logitsT logitsOf
  have hrow : (fun j => win0_0.fill (grid0.coords t) d0 (iblk m c 0 t) (ix2 (⟨(y 1).val, hq⟩ : Fin 12544) j))
      = fun j => V m c main_arg0 (ix2 (⟨(((win0_5.blk t).view.emb y) 1).val, (((win0_5.blk t).view.emb y) 1).isLt⟩ : Fin 50000) j) :=
    funext fun j => features_block m c t d0 ⟨(y 1).val, hq⟩ (y 1).isLt _ ei1 j
  have hw1 : (fun j k => iblk m c 1 t (ix2 j k)) = fun j k => V m c main_arg1 (ix2 j k) :=
    funext fun j => funext fun k => weights1_block m c t j k
  have hb1 : (fun k => iblk m c 2 t (ix2 0 k)) = fun k => V m c main_v0 (ix2 0 k) := funext fun k => bias1_block m c t k
  have hpp : (⟨(((win0_5.blk t).view.emb y) 0).val, (((win0_5.blk t).view.emb y) 0).isLt⟩ : Fin 47) = ⟨(y 0).val, hp⟩ := Fin.ext ei0
  have hw2 : (fun k => iblk m c 3 t (ix2 (⟨(y 0).val, hp⟩ : Fin 47) k)) = fun k => V m c main_v1 (ix2 (⟨(y 0).val, hp⟩ : Fin 47) k) :=
    funext fun k => weights2_block m c t _ k
  show Cert.Mlp.logit _ _ _ _ _ = Cert.Mlp.logit _ _ _ _ _
  rw [hrow, hw1, hb1, hw2, bias2_block m c t ⟨(y 0).val, hp⟩, hpp]

end Cert.KernelIdeal.Run

end
-- ==== Proof.IdealRun.lean ====
/-
  The idealized kernel's run: the proof data, the body obligation, and the result array after the run.

  After the body at point `t` the feature staging buffer holds its block (rows past the array's end: nothing stated), the
  four small buffers the whole arrays they were fetched from, and the result's buffer — on the columns inside the array,
  all that the write-back moves — block `t` of the transposed logits. The four result blocks are columns
  `12544·t … min(12544·t + 12543, 49999)`: together all 50000, so the result array ends holding the transposed logits.
-/
import proofs.«152426_g5540507811991_cont_9to1c4b_52_39_alg».proof.Proof.IdealData

set_option maxRecDepth 16384

noncomputable section

namespace Cert.KernelIdeal.Run

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The arrays as the region finds them; after the body each input's buffer at its block (the features' filled out with
    zeros past the array's end, where nothing is stated) and the result's at block `t` of the transposed logits, filled out
    likewise; the scoped rest and the random-number register untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => win0_5.fill (grid0.coords t) (fun _ => (0 : EReal)) ((win0_5.blk t).view.read (Elt Ideal) (logitsT m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0 : EReal)) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = win0_5.fill (grid0.coords t) (fun _ => (0 : EReal)) ((win0_5.blk t).view.read (Elt Ideal) (logitsT m c)) := by
  dsimp only [dats]

/-! ## What the body finds -/

/-- The features' buffer is fetched into at every point: its block where the fetch landed, anything elsewhere. -/
theorem before0_0 (c : Dev nD) (t : Fin cfg0.N) (d) :
    (dats m 0 c).before 0 t d = win0_0.fill (grid0.coords t) d (iblk m c 0 t) := by
  rw [(dats m 0 c).before_fetched 0 t (fetch0_0 t)]; rfl
/-- The four small inputs hold their blocks at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The result's buffer is written back at every point: the body finds it at contents nothing names. -/
theorem before0_5 (c : Dev nD) (t : Fin cfg0.N) (d) : (dats m 0 c).before 5 t d = d :=
  (dats m 0 c).before_out_reset 5 rfl t (by
    by_cases h0 : t.val = 0
    · exact .inl h0
    · exact .inr ⟨h0, flush0_5 _⟩) d

/-! ## The body obligation -/

theorem body_obligation (c : Dev nD) : BodyObligationLoose (dats m 0 c) (defs₀ (F := Ideal)) Variants.none () Set.univ := fun t => by
  rw [bigSep_W0, bigSep_W0]
  simp only
  change _ ⊢ wp frame (wpE (defs₀ (F := Ideal)) Variants.none c none) Set.univ (bodyAt0 t) _
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4, before0_5 m c t d5]
  iapply (sound_kernel (F := Ideal) c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · -- the features' buffer: as found, which on the rows inside the array is the block
    iexists d0
    change _ ⊢ owns (c : Thread nD τ) (st0_0 t) fullShare (win0_0.fill (grid0.coords t) d0 (win0_0.cut (grid0.coords t) ((dats m 0 c).after 0 t)))
    rw [after0_0, win0_0.cut_fill]; try iexact H0
  isplitl [H1]; · rw [after0_1]; iexact H1
  isplitl [H2]; · rw [after0_2]; iexact H2
  isplitl [H3]; · rw [after0_3]; iexact H3
  isplitl [H4]; · rw [after0_4]; iexact H4
  · -- the result's buffer: the stored block, which on the columns inside the array is the block of the transposed logits
    iexists (outBlock (F := Ideal) (win0_0.fill (grid0.coords t) d0 (iblk m c 0 t)) (iblk m c 1 t) (iblk m c 2 t) (iblk m c 3 t) (iblk m c 4 t))
    change _ ⊢ owns (c : Thread nD τ) (st0_5 t) fullShare (win0_5.fill (grid0.coords t) _ (win0_5.cut (grid0.coords t) ((dats m 0 c).after 5 t)))
    rw [after0_5, win0_5.cut_fill, ← cut_outBlock m c t d0, win0_5.fill_cut]; try iexact H5

/-! ## The run -/

set_option backward.isDefEq.respectTransparency.types false in
/-- Every weakly fair execution of @main terminates without a fault, every array of the pipeline at what the proof data
    give and every other unscoped buffer as the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-! ## The result array after the run -/

/-- What point `t` writes back is block `t` of the transposed logits. -/
theorem flushed_eq (c : Dev nD) (t : Fin cfg0.N) :
    (dats m 0 c).flushed 5 t = ((cfg0.win 5).blk t).view.read (Elt Ideal) (logitsT m c) := by
  show (cfg0.win 5).cut (grid0.coords t) ((dats m 0 c).after 5 t) = _
  rw [after0_5]; exact win0_5.cut_fill _ _ _

/-- An index of the result array is in point `t`'s block iff each coordinate is in the block's range, cut at the array's end. -/
theorem mem_blk (t : Fin cfg0.N) (i : S47x50000.Idx) :
    i ∈ ((cfg0.win 5).blk t).view.set ↔ ∀ a : Fin 2, win0_5.index t a * S47x12544.size a ≤ (i a).val
      ∧ (i a).val < win0_5.index t a * S47x12544.size a + win0_5.xsize (grid0.coords t) a := by
  show i ∈ ((View.whole main_v3).slice (win0_5.rect t)).set ↔ _
  rw [View.set_slice_whole, Rect.mem_set_unit]
  exact Iff.rfl

/-- The result blocks, decided over the grid: all 47 rows, columns from `12544·t` to the next block's start or the array's end. -/
theorem cover_facts : ∀ t : Fin cfg0.N, win0_5.index t (0 : Fin 2) = 0 ∧ win0_5.index t (1 : Fin 2) = t.val
    ∧ win0_5.xsize (grid0.coords t) (0 : Fin 2) = 47
    ∧ ((t.val + 1) * 12544 ≤ t.val * 12544 + win0_5.xsize (grid0.coords t) (1 : Fin 2)
      ∨ 50000 ≤ t.val * 12544 + win0_5.xsize (grid0.coords t) (1 : Fin 2)) :=
  (by decide +kernel : ∀ t : Fin grid0.N, _)

/-- Every index of the result array is in the block of the point its column falls to. -/
theorem cover (i : S47x50000.Idx) : ∃ t : Fin cfg0.N, (cfg0.win 5).flush t = true ∧ i ∈ ((cfg0.win 5).blk t).view.set := by
  have hi0 : (i 0).val < 47 := (i 0).isLt
  have hi1 : (i 1).val < 50000 := (i 1).isLt
  have hN : (i 1).val / 12544 < cfg0.N := by rw [show cfg0.N = 4 from N_0]; omega
  obtain ⟨c0, c1, c2, c3⟩ := cover_facts ⟨(i 1).val / 12544, hN⟩
  have ht : (⟨(i 1).val / 12544, hN⟩ : Fin cfg0.N).val = (i 1).val / 12544 := rfl
  refine ⟨⟨(i 1).val / 12544, hN⟩, flush0_5 _, (mem_blk _ i).mpr fun a => ?_⟩
  match a with
  | ⟨0, _⟩ =>
    show win0_5.index ⟨(i 1).val / 12544, hN⟩ (0 : Fin 2) * 47 ≤ (i 0).val
      ∧ (i 0).val < win0_5.index ⟨(i 1).val / 12544, hN⟩ (0 : Fin 2) * 47 + win0_5.xsize (grid0.coords ⟨(i 1).val / 12544, hN⟩) (0 : Fin 2)
    omega
  | ⟨1, _⟩ =>
    show win0_5.index ⟨(i 1).val / 12544, hN⟩ (1 : Fin 2) * 12544 ≤ (i 1).val
      ∧ (i 1).val < win0_5.index ⟨(i 1).val / 12544, hN⟩ (1 : Fin 2) * 12544 + win0_5.xsize (grid0.coords ⟨(i 1).val / 12544, hN⟩) (1 : Fin 2)
    omega

/-- The result array after the run is the transposed logits. -/
theorem final (c : Dev nD) : (dats m 0 c).arrAt 5 cfg0.N = logitsT m c :=
  (dats m 0 c).arrAt_eq_of_cover 5 (logitsT m c) (fun t _ => flushed_eq m c t) cover

end Cert.KernelIdeal.Run

end
-- ==== Proof.IdealValue.lean ====
/-
  The two programs compute one function.

  Kernel: before the region the bias vectors are re-laid as a row and a column and the second layer's weights transposed;
  after it the result array — the transposed logits — is transposed back. So entry `(n, p)` of the kernel's result is the
  logit of feature row `n` for class `p`, over the arguments themselves: row `n` of the features, `W1`, `b1`, column `p` of
  `W2`, and `b2 p`.
  Reference: `max (x · W1 + b1) 0 · W2 + b2`, whose entry `(n, p)` is, operation by operation, the same logit (the
  reference's product with `W2` has the hidden unit on the left, as the specification has).
-/
import proofs.«152426_g5540507811991_cont_9to1c4b_52_39_alg».proof.Proof.IdealRun
import proofs.«152426_g5540507811991_cont_9to1c4b_52_39_alg».proof.Proof.Gen.ReferenceIdeal.Read
import Idealize.ShloMosaic.Lib.ValueLayout
import Idealize.ShloMosaic.Lib.StableHlo.Run

set_option maxRecDepth 16384

noncomputable section

/-! ## A vector re-laid as a column -/

namespace Cert.Mlp

open Idealize.ShloMosaic Idealize.ShloMosaic.ValueIdx

/-- An `[a]` array cast to `[a, 1]` reads, at `(i, u)`, the operand at `i`, whatever the unit coordinate `u`. -/
theorem column_entry {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Mlp

/-! ## The kernel's result, entry by entry, over the arguments -/

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo
open Idealize.ShloMosaic.Pipeline (Dat)

variable (m : (ℓ : Loc nD τ sig) → Buf (Elt Ideal) ℓ) (ρ : Dev nD → PrngReg)

/-- The bias row the region finds is the first layer's bias vector. -/
theorem bias1_entry (c : Dev nD) (k : Fin 256) :
    V m c main_v0 (ix2 (0 : Fin 1) k) = m ((c.tc : Thread nD τ).loc main_arg2) (ix1 k) := by
  have e : (V m c main_v0 : S1x256.Idx → EReal)
      = shapeCast S1x256 (m ((c.tc : Thread nD τ).loc main_arg2)) shapeCasts_S256_S1x256 := by
    show StableHlo.after hostOps0 (fun b => m (c, b)) (Proc.devRef .tc main_v0) = _
    after_results; try rfl
  exact (congrFun e _).trans (shapeCast_a_1a_apply _ shapeCasts_S256_S1x256 (0 : Fin 1) k)

/-- The weights the region finds are the second layer's, transposed. -/
theorem weights2_entry (c : Dev nD) (p : Fin 47) (k : Fin 256) :
    V m c main_v1 (ix2 p k) = m ((c.tc : Thread nD τ).loc main_arg3) (ix2 k p) := by
  have e : (V m c main_v1 : S47x256.Idx → EReal)
      = transpose S47x256 [1, 0] (m ((c.tc : Thread nD τ).loc main_arg3)) transposes_S256x47_S47x256_1_0 := by
    show StableHlo.after hostOps0 (fun b => m (c, b)) (Proc.devRef .tc main_v1) = _
    after_results; try rfl
  exact (congrFun e _).trans (transpose_ix2_apply _ transposes_S256x47_S47x256_1_0 p k)

/-- The bias column the region finds is the second layer's bias vector. -/
theorem bias2_entry (c : Dev nD) (p : Fin 47) :
    V m c main_v2 (ix2 p (0 : Fin 1)) = m ((c.tc : Thread nD τ).loc main_arg4) (ix1 p) := by
  have e : (V m c main_v2 : S47x1.Idx → EReal)
      = shapeCast S47x1 (m ((c.tc : Thread nD τ).loc main_arg4)) shapeCasts_S47_S47x1 := by
    show StableHlo.after hostOps0 (fun b => m (c, b)) (Proc.devRef .tc main_v2) = _
    after_results; try rfl
  exact (congrFun e _).trans (Cert.Mlp.column_entry _ shapeCasts_S47_S47x1 p (0 : Fin 1))

/-- The program's result: the transposed logits, transposed back. -/
def result (c : Dev nD) : Buf (Elt Ideal) ((c.tc : Thread nD τ).loc main_v4) :=
  transpose S50000x47 [1, 0] (logitsT m c) transposes_S47x50000_S50000x47_1_0

/-- What the line after the region leaves in the result buffer. -/
theorem tail_eq (c : Dev nD) : Pipeline.afterTail₀ cfgs (dats m) 0 (V0 m) [hostOps1] c main_v4 = result m c := by
  unfold Pipeline.afterTail₀
  show StableHlo.after hostOps1 _ (Proc.devRef .tc main_v4) = _
  after_results
  exact congrArg (fun x => transpose S50000x47 [1, 0] x transposes_S47x50000_S50000x47_1_0)
    ((Pipeline.withArrays_arr spec0 winFacts0.arr_inj c _ _ 5).trans (final m c))

/-- Entry `(n, p)` of the result is the logit of feature row `n` for class `p`, over the arguments. -/
theorem result_entry (c : Dev nD) (n : Fin 50000) (p : Fin 47) :
    result m c (ix2 n p) = Cert.Mlp.logit (fun j => m ((c.tc : Thread nD τ).loc main_arg0) (ix2 n j))
      (fun j k => m ((c.tc : Thread nD τ).loc main_arg1) (ix2 j k)) (fun k => m ((c.tc : Thread nD τ).loc main_arg2) (ix1 k))
      (fun k => m ((c.tc : Thread nD τ).loc main_arg3) (ix2 k p)) (m ((c.tc : Thread nD τ).loc main_arg4) (ix1 p)) := by
  unfold result
  refine (transpose_ix2_apply (logitsT m c) transposes_S47x50000_S50000x47_1_0 n p).trans ?_
  show Cert.Mlp.logit (fun j => V m c main_arg0 (ix2 n j)) (fun j k => V m c main_arg1 (ix2 j k))
    (fun k => V m c main_v0 (ix2 (0 : Fin 1) k)) (fun k => V m c main_v1 (ix2 p k)) (V m c main_v2 (ix2 p (0 : Fin 1))) = _
  rw [V_main_arg0 m c, V_main_arg1 m c, bias2_entry m c p,
    show (fun k => V m c main_v0 (ix2 (0 : Fin 1) k)) = fun k => m ((c.tc : Thread nD τ).loc main_arg2) (ix1 k) from
      funext fun k => bias1_entry m c k,
    show (fun k => V m c main_v1 (ix2 p k)) = fun k => m ((c.tc : Thread nD τ).loc main_arg3) (ix2 k p) from
      funext fun k => weights2_entry m c p k]

/-- The idealized kernel's run, read: the result buffer ends at `result`, every argument array as launched. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

/-! ## The reference's result, entry by entry -/

namespace Cert.ReferenceIdeal.RefValue

open Cert.ReferenceIdeal Cert.ReferenceIdeal.Gen Cert.ReferenceIdeal.Read
open Idealize.ShloMosaic Idealize.ShloMosaic.ValueIdx

/-- Entry `(n, p)` of the reference's last stage is the logit of row `n` for class `p`. -/
theorem reference_entry (x0 : S50000x256.Idx → EReal) (x1 : S256x256.Idx → EReal) (x2 : S256.Idx → EReal)
    (x3 : S256x47.Idx → EReal) (x4 : S47.Idx → EReal) (n : Fin 50000) (p : Fin 47) :
    val_main_v9 (F := Ideal) x0 x1 x2 x3 x4 (ix2 n p)
      = Cert.Mlp.logit (fun j => x0 (ix2 n j)) (fun j k => x1 (ix2 j k)) (fun k => x2 (ix1 k)) (fun k => x3 (ix2 k p)) (x4 (ix1 p)) := by
  have l6 : ∀ k : Fin 256, lidx_main_v6 (ix2 n p) k = ix2 n k := fun k => funext fun a => Fin.ext (by
    match a with
    | ⟨0, _⟩ => rfl
    | ⟨1, _⟩ => rfl)
  have r6 : ∀ k : Fin 256, ridx_main_v6 (ix2 n p) k = ix2 k p := fun k => funext fun a => Fin.ext (by
    match a with
    | ⟨0, _⟩ => rfl
    | ⟨1, _⟩ => rfl)
  have l0 : ∀ k j : Fin 256, lidx_main_v0 (ix2 n k) j = ix2 n j := fun k j => funext fun a => Fin.ext (by
    match a with
    | ⟨0, _⟩ => rfl
    | ⟨1, _⟩ => rfl)
  have r0 : ∀ k j : Fin 256, ridx_main_v0 (ix2 n k) j = ix2 j k := fun k j => funext fun a => Fin.ext (by
    match a with
    | ⟨0, _⟩ => rfl
    | ⟨1, _⟩ => rfl)
  have i2 : ∀ k : Fin 256, idx_main_v2 (ix2 n k) = ix2 (0 : Fin 1) k := fun k => funext fun a => Fin.ext (by
    match a with
    | ⟨0, _⟩ => rfl
    | ⟨1, _⟩ => rfl)
  have i1 : ∀ k : Fin 256, idx_main_v1 (ix2 (0 : Fin 1) k) = ix1 k := fun k => funext fun a => Fin.ext (by
    match a with
    | ⟨0, _⟩ => rfl)
  have i8 : idx_main_v8 (ix2 n p) = ix2 (0 : Fin 1) p := funext fun a => Fin.ext (by
    match a with
    | ⟨0, _⟩ => rfl
    | ⟨1, _⟩ => rfl)
  have i7 : idx_main_v7 (ix2 (0 : Fin 1) p) = ix1 p := funext fun a => Fin.ext (by
    match a with
    | ⟨0, _⟩ => rfl)
  rw [val_main_v9_apply, val_main_v6_apply, val_main_v8_apply, val_main_v7_apply, i8, i7]
  unfold Cert.Mlp.logit
  refine congrArg₂ (· + ·) (Finset.sum_congr rfl fun k _ => ?_) rfl
  rw [l6, r6, val_main_v5_apply, val_main_v3_apply, val_main_v0_apply, val_main_v2_apply, val_main_v1_apply, val_main_v4_apply,
    val_main_cst_apply, i2, i1]
  simp only [l0, r0]
  unfold Cert.Mlp.hiddenUnit
  show max ((∑ j : Fin 256, x0 (ix2 n j) * x1 (ix2 j k)) + x2 (ix1 k)) (Ideal.ofBits .f32 0x00000000#32) * x3 (ix2 k p) = _
  rw [Ideal.ofBits_zero_f32]

end Cert.ReferenceIdeal.RefValue

/-! ## One function -/

namespace Cert.Bridge

open Idealize.ShloMosaic Idealize.ShloMosaic.TcCoe Idealize.ShloMosaic.ValueIdx Idealize.SL.Sem

/-- The reference's last stage of the kernel's arguments is the kernel's result: entry by entry both are the logit. -/
theorem reference_eq (m : (ℓ : Loc Cert.KernelIdeal.nD Cert.KernelIdeal.τ Cert.KernelIdeal.sig) → Buf (Elt Ideal) ℓ)
    (c : Dev Cert.KernelIdeal.nD) :
    Cert.ReferenceIdeal.Read.val_main_v9 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Run.result m c := by
  funext i
  obtain ⟨n, p, rfl⟩ : ∃ (n : Fin 50000) (p : Fin 47), i = ix2 n p := ⟨i 0, i 1, eq_ix2 i⟩
  exact (Cert.ReferenceIdeal.RefValue.reference_entry _ _ _ _ _ n p).trans (Cert.KernelIdeal.Run.result_entry m c n p).symm

end Cert.Bridge

end
-- ==== Proof.lean ====
/-
  The certificate of a two-layer perceptron kernel against its reference, `logits = max (x · W1 + b1) 0 · W2 + b2` over
  50000 samples, 256 features, 256 hidden units and 47 classes.

  The kernel streams the features in four blocks of 12544 rows and writes the logits TRANSPOSED, 47 × 50000, block by block;
  the host lines around it re-lay the two bias vectors, transpose the second layer's weights, and transpose the result back.
  The fourth block overhangs the 50000 rows by 176: its staging rows past the array's end hold words nothing names.

  * The three frames. The word-level kernel: by relational proof data that leave the result's staging contents unstated
    (`Proof/BitsFrame.lean`) — the frame claim reads nothing of the result, and what the body computes from the unnamed words
    is not determined. The idealized kernel: from its value run (`Proof/IdealRun.lean`). The reference: its run with the
    result dropped.
  * `preserves`: the idealization rewrote no operation; the conjunct is `True`.
  * `algebraic`: at the ideal values a change of float format is the identity and a product into a zero accumulator is the
    plain sum, so entry `(n, p)` of either result is the logit of row `n` for class `p` (`Proof/Mlp.lean`): the kernel's
    because a logit depends on its own row only — the overhanging rows never reach a column the write-back moves — and the
    four result blocks cover all 50000 columns; the reference's operation by operation. The one algebraic law used is the
    commutativity of the product (the kernel multiplies weight by hidden unit, the reference hidden unit by weight), which
    holds on all extended reals: the precondition is never opened.
-/
import proofs.«152426_g5540507811991_cont_9to1c4b_52_39_alg».proof.Defs
import proofs.«152426_g5540507811991_cont_9to1c4b_52_39_alg».proof.Proof.Gen.Kernel
import proofs.«152426_g5540507811991_cont_9to1c4b_52_39_alg».proof.Proof.Gen.KernelIdeal
import proofs.«152426_g5540507811991_cont_9to1c4b_52_39_alg».proof.Proof.Gen.ReferenceIdeal
import proofs.«152426_g5540507811991_cont_9to1c4b_52_39_alg».proof.Proof.Gen.ReferenceIdeal.Run
import proofs.«152426_g5540507811991_cont_9to1c4b_52_39_alg».proof.Proof.Gen.ReferenceIdeal.Read
import proofs.«152426_g5540507811991_cont_9to1c4b_52_39_alg».proof.Proof.Gen.Pre_finite_inputs
import proofs.«152426_g5540507811991_cont_9to1c4b_52_39_alg».proof.Proof.BitsFrame
import proofs.«152426_g5540507811991_cont_9to1c4b_52_39_alg».proof.Proof.IdealValue

noncomputable section

namespace Cert.Proof

open Idealize.ShloMosaic Idealize.ShloMosaic.TcCoe Idealize.SL.Sem

theorem frame_kernel : Cert.frame_Kernel := fun m ρ _ => Cert.Kernel.FrameProof.frame (F := Bits) m ρ

theorem frame_kernel_ideal : Cert.frame_KernelIdeal := fun m ρ _ => Cert.KernelIdeal.Run.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the logits: the kernel's run read at its result, the
    reference's run at its last stage, and the two one function of the arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v9_eq _ _ _ _ _).trans (Cert.Bridge.reference_eq m c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
